-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S1600000 .f32) (main_arg2 : FVec F S128x128 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S2x1600000 : Shape := ⟨2, ![2, 1600000]⟩
abbrev S10000x128 : Shape := ⟨2, ![10000, 128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 63
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S2x1600000, .i32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S10000x128_S10000x128 : S10000x128.ShapeCasts S10000x128
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S2x1600000, .i32⟩
  | .hbm, ⟨4, _⟩ => ⟨S128x128, .f32⟩
  | .hbm, ⟨5, _⟩ => ⟨S100000x128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call1_cst : Ref sig .tc := ⟨.hbm, 63, rfl⟩
abbrev main_call1_v0 : Ref sig .tc := ⟨.hbm, 64, rfl⟩
abbrev main_v48 : Ref sig .tc := ⟨.hbm, 65, rfl⟩

abbrev nD : Nat := 1
abbrev τ : Topo := Topo.v7x

variable {F : FTy → Type} [FloatOps F]

class Facts₀ : Prop where
  transposes_S128x128_S128x128_1_0 : S128x128.Transposes [1, 0] S128x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibTransposedDot.lean ====
/-
  A linear map applied to every row, `x = a · wᵀ`, as one function of the two arrays, entry by entry, for any sizes.

  `proj a w` is, at `(p, q)`, the sum over `k` of `a (p, k) · w (q, k)`: row `p` of the `M × K` array `a` against
  row `q` of the `N × K` array `w`. A product of an `M × K` array by the TRANSPOSE of an `N × K` array, contracted
  over the shared axis and accumulated into zeros, is that sum over the extended reals: the contraction reads the
  transposed operand at `(k, q)`, which is `w` at `(q, k)` (`matmul_transposed_apply`; the hypotheses are the
  coordinate facts of the product's dimension record).
-/
import Idealize.ShloMosaic.PureOps.Ideal.Laws
import Idealize.ShloMosaic.Lib.ValueIdx
import Idealize.ShloMosaic.Lib.Pipeline.Value
import proofs.«159801_j14654428414705_1_alg».proof.Proof.LibDotSum

noncomputable section

namespace Cert.LibTransposedDot

open Idealize.ShloMosaic Idealize.ShloMosaic.ValueIdx

/-- Every row of `a` mapped by `w`: entry `(p, q)` is `∑ k, a (p, k) · w (q, k)`. -/
def proj {M K N : Nat} (a : (⟨2, ![M, K]⟩ : Shape).Idx → EReal) (w : (⟨2, ![N, K]⟩ : Shape).Idx → EReal) :
    (⟨2, ![M, N]⟩ : Shape).Idx → EReal :=
  fun i => ∑ k : Fin K, a (ix2 (n0 := M) (i 0) k) * w (ix2 (n0 := N) (i 1) k)

theorem proj_apply {M K N : Nat} (a : (⟨2, ![M, K]⟩ : Shape).Idx → EReal) (w : (⟨2, ![N, K]⟩ : Shape).Idx → EReal)
    (p : Fin M) (q : Fin N) : proj a w (ix2 p q) = ∑ k : Fin K, a (ix2 p k) * w (ix2 q k) := rfl

/-- The transpose of an `N × K` array at `(k, q)` is the array at `(q, k)`. -/
theorem transpose_apply_ix2 {N K : Nat} {α : Type} (w : (⟨2, ![N, K]⟩ : Shape).Idx → α)
    (hT : (⟨2, ![N, K]⟩ : Shape).Transposes [1, 0] ⟨2, ![K, N]⟩) (k : Fin K) (q : Fin N) :
    transpose ⟨2, ![K, N]⟩ [1, 0] w hT (ix2 k q) = w (ix2 q k) :=
  transpose_apply [1, 0] w hT (ix2 k q) (ix2 q k) fun b => by
    match b with
    | ⟨0, _⟩ => rfl
    | ⟨1, _⟩ => rfl

/-- A product with the transposed array, contracted over the shared axis into a zero accumulator, is `proj`
    at `(p, q)` (the hypotheses are the dimension record's coordinate facts, which compute on a given record). -/
theorem matmul_transposed_apply {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (a : FVec Ideal ⟨2, ![M, K]⟩ φ₁) (w : FVec Ideal ⟨2, ![N, K]⟩ φ₂)
    (hT : (⟨2, ![N, K]⟩ : Shape).Transposes [1, 0] ⟨2, ![K, N]⟩) (p : Fin M) (q : Fin N) :
    FloatOps.matmul D prec a (transpose ⟨2, ![K, N]⟩ [1, 0] w hT) (constant ⟨2, ![M, N]⟩ .f32 0x00000000#32) (ix2 p q)
      = proj (M := M) (K := K) (N := N) a w (ix2 p q) := by
  refine (Ideal.matmul_constant_zero_apply D prec a _ (ix2 p q)).trans ?_
  refine (Cert.LibDotSum.sum_dot D hr hs hl0 hl1 hr0 hr1 a (transpose ⟨2, ![K, N]⟩ [1, 0] w hT) p q).trans ?_
  rw [proj_apply]
  exact Finset.sum_congr rfl fun k _ => congrArg (a (ix2 p k) * ·) (transpose_apply_ix2 w hT k q)

end Cert.LibTransposedDot

end
-- ==== Proof.KernelRun.lean ====
/-
  The idealized kernel's run with its result named.

  The program is two kernel regions with host operations between them. Every execution ends with each buffer the
  TensorCore holds at the contents the segments leave one after the other: the launch memory, then the first region's
  output array at what its write-backs leave, then the host operations' results, then the second region's output
  array at what its write-backs leave. The result buffer is that last array; the four argument buffers are never
  written.
-/
import proofs.«159801_j14654428414705_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the second
    region's output array after its last write-back and the argument buffers as launched. -/
theorem run_named : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Gcn.KernelRun

end
-- ==== Proof.Aggregate.lean ====
/-
  The graph stage as ONE function of the projected features `x`, the edge weights `w` and the edge list `ei`.

  Every node gets a self loop of weight 3: the destination list `rows` and the source list `cols` are the two rows
  of `ei` followed by `0, 1, …, n − 1`, and `weights` is `w` followed by `n` threes. The degree of a node is the sum
  of the weights of the edges that end at it; `invSqrtDeg` is `deg^(-1/2)` where the degree is positive and `0`
  elsewhere. Edge `e` carries the coefficient `norm e = invSqrtDeg (rows e) · weights e · invSqrtDeg (cols e)`, and the
  result row of node `r` is the sum, over the edges `e` that end at `r`, of `norm e` times row `cols e` of `x`.
  A negative node number is read as counted from the end (`wrap`) where an entry is LOOKED UP; where entries are
  summed into a node's row an edge whose destination is outside the range adds nothing.

  Both programs compute the stage by these same operations, so it is kept as one opaque function of `x`: the
  proof never reads a degree or a coefficient.
-/
import proofs.«159801_j14654428414705_1_alg».proof.KernelIdeal
import proofs.«159801_j14654428414705_1_alg».proof.Proof.Gen.KernelIdeal

noncomputable section

namespace Cert.Gcn

open Idealize.ShloMosaic Cert.KernelIdeal Cert.KernelIdeal.Gen

variable {F : FTy → Type} [FloatOps F]

/-- Row `r` (0 or 1) of the edge list, followed by the self loops `0, 1, …, n − 1`. -/
def endpoints (r : Fin 2) (ei : (⟨S2x1600000, .i32⟩ : BufTy).Contents (Elt F)) : (⟨S1700000, .i32⟩ : BufTy).Contents (Elt F) :=
  match r with
  | ⟨0, _⟩ => concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0
  | ⟨1, _⟩ => concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- The edge weights, followed by a weight 3 for every self loop. -/
def weights (w : (⟨S1600000, .f32⟩ : BufTy).Contents (Elt F)) : (⟨S1700000, .f32⟩ : BufTy).Contents (Elt F) :=
  concatenate S1700000 0 [⟨S1600000, w⟩, ⟨S100000, broadcastInDim S100000 ![] bcast_S_S100000 (constant S_ .f32 0x40400000#32)⟩] concatenates_S1600000_S100000_S1700000_d0

/-- A negative node number counts from the end. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- The node numbers as a column of one-entry index vectors. -/
def column (v : (⟨S1700000, .i32⟩ : BufTy).Contents (Elt F)) : (⟨S1700000x1, .i32⟩ : BufTy).Contents (Elt F) :=
  broadcastInDim S1700000x1 ![0] bcast_S1700000_S1700000x1_0 v

/-- The degree of every node: the weights of the edges that end at it, summed. -/
def degree (w : (⟨S1600000, .f32⟩ : BufTy).Contents (Elt F)) (ei : (⟨S2x1600000, .i32⟩ : BufTy).Contents (Elt F)) :
    (⟨S100000, .f32⟩ : BufTy).Contents (Elt F) :=
  Host.scatterAdd scatter_S100000_S1700000x1_S1700000_n_0_0_1
    (broadcastInDim S100000 ![] bcast_S_S100000 (constant S_ .f32 0x00000000#32)) (column (endpoints 0 ei)) (weights w)

/-- `deg^(-1/2)` where the degree is positive, `0` elsewhere. -/
def invSqrtDeg (w : (⟨S1600000, .f32⟩ : BufTy).Contents (Elt F)) (ei : (⟨S2x1600000, .i32⟩ : BufTy).Contents (Elt F)) :
    (⟨S100000, .f32⟩ : BufTy).Contents (Elt F) :=
  select (cmpf .ogt (degree w ei) (broadcastInDim S100000 ![] bcast_S_S100000 (constant S_ .f32 0x00000000#32)))
    (Host.rsqrt (degree w ei)) (broadcastInDim S100000 ![] bcast_S_S100000 (constant S_ .f32 0x00000000#32))

/-- The coefficient of every edge: `invSqrtDeg` at its destination, times its weight, times `invSqrtDeg` at its source. -/
def norm (w : (⟨S1600000, .f32⟩ : BufTy).Contents (Elt F)) (ei : (⟨S2x1600000, .i32⟩ : BufTy).Contents (Elt F)) :
    (⟨S1700000, .f32⟩ : BufTy).Contents (Elt F) :=
  mulf (mulf (Host.gather gather_S100000_S1700000x1_S1700000_n_0_n_n_0_1_1 (invSqrtDeg w ei) (column (wrap (endpoints 0 ei)))) (weights w))
    (Host.gather gather_S100000_S1700000x1_S1700000_n_0_n_n_0_1_1 (invSqrtDeg w ei) (column (wrap (endpoints 1 ei))))

/-- The aggregation: node `r`'s row is the sum over the edges `e` ending at `r` of `norm e` times row `cols e` of `x`. -/
def aggregate (x : (⟨S100000x128, .f32⟩ : BufTy).Contents (Elt F)) (w : (⟨S1600000, .f32⟩ : BufTy).Contents (Elt F))
    (ei : (⟨S2x1600000, .i32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32)) (column (endpoints 0 ei))
    (mulf (broadcastInDim S1700000x128 ![0, 1] bcast_S1700000x1_S1700000x128_0_1 (broadcastInDim S1700000x1 ![0] bcast_S1700000_S1700000x1_0 (norm w ei)))
      (Host.gather gather_S100000x128_S1700000x1_S1700000x128_1_0_n_n_0_1_1128 x (column (wrap (endpoints 1 ei)))))

/-- The rectifier: the larger of an entry and zero. -/
def relu (y : (⟨S100000x128, .f32⟩ : BufTy).Contents (Elt F)) : (⟨S100000x128, .f32⟩ : BufTy).Contents (Elt F) :=
  maximumf y (broadcastInDim S100000x128 ![] bcast_S_S100000x128 (constant S_ .f32 0x00000000#32))

end Cert.Gcn

end
-- ==== Proof.Region0.lean ====
/-
  The first kernel region: the feature projection, ten blocks of 10000 rows.

  At grid point `t` the body loads rows `10000 t … 10000 t + 9999` of the features and the whole weight matrix,
  multiplies the feature block by the transposed weights into a zero accumulator, and stores the product to the
  same rows of its output. (The two operands are first narrowed to a shorter float format; over the extended reals
  a change of format changes nothing.) Entry `(p, q)` of the stored block is `∑ k, block (p, k) · weights (q, k)`,
  which is entry `(10000 t + p, q)` of `proj` of the two whole arrays: a row of the product reads only the same row
  of the features. The ten output blocks tile the 100000 rows, so after the region the output array is `proj` of
  the feature and weight arrays as the region found them.
-/
import proofs.«159801_j14654428414705_1_alg».proof.Proof.Gen.KernelIdeal.Frame
import proofs.«159801_j14654428414705_1_alg».proof.Proof.LibTransposedDot
import Idealize.ShloMosaic.Lib.Pipeline.Value
import Idealize.ShloMosaic.Lib.ValueIdx

set_option maxRecDepth 16384

noncomputable section

namespace Cert.Gcn.Region0

open Cert.KernelIdeal Cert.KernelIdeal.Gen Idealize.ShloMosaic Idealize.ShloMosaic.TcCoe Idealize.SL.Sem
open Idealize.ShloMosaic.ValueIdx Cert.LibTransposedDot
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! ## The block product's dimension record: which operand entries an output entry reads -/

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The stored block, entry by entry -/

/-- Entry `(p, q)` of the stored block: row `p` of the loaded feature block against row `q` of the loaded weights. -/
theorem stored_apply (x0 : Vec Ideal S10000x128 .f32) (x1 : Vec Ideal S128x128 .f32) (p : Fin 10000) (q : Fin 128) :
    k0_pay1 x0 x1 (ix2 p q) = ∑ k : Fin 128, x0 (ix2 p k) * x1 (ix2 q k) := by
  unfold k0_pay1
  exact matmul_transposed_apply dot_S10000x128_S128x128_S10000x128_1_0_0_1_n_n rfl rfl lhs_0 lhs_1 rhs_0 rhs_1 none
    (truncf .bf16 x0 bitsLt_bf16_f32) (truncf .bf16 x1 bitsLt_bf16_f32) transposes_S128x128_p1_0_S128x128 p q

/-- A feature block that holds rows `10000 r …` of an array `A`, against weights that hold an array `B`: the
    stored entry `(p, q)` is entry `(10000 r + p, q)` of `proj A B`. -/
theorem stored_block (A : S100000x128.Idx → EReal) (B : S128x128.Idx → EReal)
    (x0 : Vec Ideal S10000x128 .f32) (x1 : Vec Ideal S128x128 .f32) (r : Nat) (hr : r < 10)
    (h0 : ∀ (p : Fin 10000) (k : Fin 128), x0 (ix2 p k) = A (ix2 (n0 := 100000) ⟨r * 10000 + p.val, by omega⟩ k))
    (h1 : ∀ (q k : Fin 128), x1 (ix2 q k) = B (ix2 q k)) (p : Fin 10000) (q : Fin 128) :
    k0_pay1 x0 x1 (ix2 p q) = proj (M := 100000) (K := 128) (N := 128) A B (ix2 (n0 := 100000) ⟨r * 10000 + p.val, by omega⟩ q) := by
  rw [stored_apply, proj_apply]
  exact Finset.sum_congr rfl fun k _ => by rw [h0, h1]

/-! ## From the blocks to the array -/

/-- The three windows' block indices at every grid point: the feature and output windows at block `t` of the rows,
    the weight window at its one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `proj` of the feature and weight arrays. -/
theorem flushed_eq (c : Dev nD) (t : Fin cfg0.N) :
    (dat0 V c).flushed 2 t = ((cfg0.win 2).blk t).view.read (Elt Ideal)
      (proj (M := 100000) (K := 128) (N := 128) (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  obtain ⟨e0, e1, e2, e3, e4, e5⟩ := index_facts t
  have ht : t.val < 10 := Nat.lt_of_lt_of_eq t.isLt N_0
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = proj (M := 100000) (K := 128) (N := 128) (V c main_arg0) (V c main_arg2) (((cfg0.win 2).blk t).view.emb (ix2 p q))
  refine (stored_block (V c main_arg0) (V c main_arg2) (iblk0 V c 0 t) (iblk0 V c 1 t) t.val ht ?_ ?_ p q).trans ?_
  · intro p k
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · intro q k
    show V c main_arg2 (((cfg0.win 1).blk t).view.emb (ix2 q k)) = _
    refine congrArg (V c main_arg2) (funext fun a => Fin.ext ?_)
    match a with
    | ⟨0, _⟩ => show win0_1.index t (0 : Fin 2) * 128 + 1 * q.val = q.val; omega
    | ⟨1, _⟩ => show win0_1.index t (1 : Fin 2) * 128 + 1 * k.val = k.val; omega
  · refine congrArg (proj (M := 100000) (K := 128) (N := 128) (V c main_arg0) (V c main_arg2)) (funext fun a => Fin.ext ?_)
    match a with
    | ⟨0, _⟩ => show t.val * 10000 + p.val = win0_2.index t (0 : Fin 2) * 10000 + 1 * p.val; omega
    | ⟨1, _⟩ => show q.val = win0_2.index t (1 : Fin 2) * 128 + 1 * q.val; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Every row lies in the block of the point numbered by its ten-thousands. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by rw [show cfg0.N = 10 from N_0]; omega
  refine ⟨⟨(i 0).val / 10000, hN⟩, flush0_2 _, ?_⟩
  rw [mem_blk]
  obtain ⟨-, -, -, -, e4, e5⟩ := index_facts ⟨(i 0).val / 10000, hN⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ _ ∧ _ < (i 0).val / 10000 * 10000 + 10000; omega
  | ⟨1, _⟩ => show win0_2.index _ (1 : Fin 2) * 128 ≤ (i 1).val ∧ (i 1).val < win0_2.index _ (1 : Fin 2) * 128 + 128; rw [e5]; omega

/-- After the region its output array is `proj` of the feature and weight arrays as the region found them. -/
theorem final (c : Dev nD) : (dat0 V c).arrAt 2 cfg0.N
    = proj (M := 100000) (K := 128) (N := 128) (V c main_arg0) (V c main_arg2) :=
  (dat0 V c).arrAt_eq_of_cover 2 (proj (M := 100000) (K := 128) (N := 128) (V c main_arg0) (V c main_arg2))
    (fun t _ => flushed_eq V c t) cover

end Cert.Gcn.Region0

end
-- ==== Proof.Region1.lean ====
/-
  The second kernel region: the rectifier, ten blocks of 10000 rows.

  At grid point `t` the body loads rows `10000 t … 10000 t + 9999` of its operand, takes the larger of every entry
  and zero, and stores the result to the same rows of its output. Input and output block move together, the ten
  output blocks tile the 100000 rows, and every entry of the output depends only on the same entry of the operand:
  after the region the output array is `relu` of the operand array as the region found it.
-/
import proofs.«159801_j14654428414705_1_alg».proof.Proof.Gen.KernelIdeal.Frame
import proofs.«159801_j14654428414705_1_alg».proof.Proof.Aggregate
import Idealize.ShloMosaic.Lib.Pipeline.Value
import Idealize.ShloMosaic.Lib.ValueIdx

set_option maxRecDepth 16384

noncomputable section

namespace Cert.Gcn.Region1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value, entry by entry: the larger of the loaded entry and zero. -/
theorem stored_apply (x0 : Vec Ideal S10000x128 .f32) (y : S10000x128.Idx) :
    k1_pay1 x0 y = max (x0 y) (Ideal.ofBits .f32 0x00000000#32) := by
  unfold k1_pay1
  rw [shapeCast_self]
  rfl

/-- `relu` entry by entry. -/
theorem relu_apply (y : (⟨S100000x128, .f32⟩ : BufTy).Contents (Elt Ideal)) (i : S100000x128.Idx) :
    relu y i = max (y i) (Ideal.ofBits .f32 0x00000000#32) := rfl

/-- The two windows' block indices at every grid point: block `t` of the rows, the one block of the columns. -/
theorem index_facts : ∀ t : Fin cfg1.N, win1_0.index t (0 : Fin 2) = win1_1.index t (0 : Fin 2)
    ∧ win1_0.index t (1 : Fin 2) = win1_1.index t (1 : Fin 2)
    ∧ win1_1.index t (0 : Fin 2) = t.val ∧ win1_1.index t (1 : Fin 2) = 0 :=
  (by decide +kernel : ∀ t : Fin grid1.N, _)

/-- What point `t` writes back is block `t` of `relu` of the operand array. -/
theorem flushed_eq (c : Dev nD) (t : Fin cfg1.N) :
    (dat1 V c).flushed 1 t = ((cfg1.win 1).blk t).view.read (Elt Ideal) (relu (V c main_v46)) := by
  show (cfg1.win 1).cut (grid1.coords t) ((dat1 V c).after 1 t) = _
  rw [after1_1]
  unfold out1_1
  rw [View.canon_unit_zero origin]
  simp only [View.ld_unit_zero (S := S10000x128) origin]
  obtain ⟨e0, e1, -, -⟩ := index_facts t
  funext j
  show k1_pay1 (iblk1 V c 0 t) j = relu (V c main_v46) (((cfg1.win 1).blk t).view.emb j)
  have h0 : ((cfg1.win 0).blk t).view.emb j = ((cfg1.win 1).blk t).view.emb j := by
    funext a; apply Fin.ext
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 128 + 1 * (j 1).val = win1_1.index t (1 : Fin 2) * 128 + 1 * (j 1).val; omega
  have e : iblk1 V c 0 t j = V c main_v46 (((cfg1.win 1).blk t).view.emb j) := by
    show V c main_v46 (((cfg1.win 0).blk t).view.emb j) = _
    rw [h0]
  rw [stored_apply, relu_apply, e]

/-- An index of the array is in point `t`'s block iff each coordinate is in the block's range on its axis. -/
theorem mem_blk (t : Fin cfg1.N) (i : S100000x128.Idx) :
    i ∈ ((cfg1.win 1).blk t).view.set ↔ ∀ a : Fin 2, win1_1.index t a * S10000x128.size a ≤ (i a).val ∧ (i a).val < win1_1.index t a * S10000x128.size a + S10000x128.size a := by
  show i ∈ ((View.whole main_v47).slice (win1_1.rect t)).set ↔ _
  rw [View.set_slice_whole, Rect.mem_set_unit]
  exact Iff.rfl

/-- Every row lies in the block of the point numbered by its ten-thousands. -/
theorem cover (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  have hN : (i 0).val / 10000 < cfg1.N := by rw [show cfg1.N = 10 from N_1]; omega
  refine ⟨⟨(i 0).val / 10000, hN⟩, flush1_1 _, ?_⟩
  rw [mem_blk]
  obtain ⟨-, -, e2, e3⟩ := index_facts ⟨(i 0).val / 10000, hN⟩
  intro a
  match a with
  | ⟨0, _⟩ => show win1_1.index _ (0 : Fin 2) * 10000 ≤ (i 0).val ∧ (i 0).val < win1_1.index _ (0 : Fin 2) * 10000 + 10000; rw [e2]; show (i 0).val / 10000 * 10000 ≤ _ ∧ _ < (i 0).val / 10000 * 10000 + 10000; omega
  | ⟨1, _⟩ => show win1_1.index _ (1 : Fin 2) * 128 ≤ (i 1).val ∧ (i 1).val < win1_1.index _ (1 : Fin 2) * 128 + 128; rw [e3]; omega

/-- After the region its output array is `relu` of the operand array as the region found it. -/
theorem final (c : Dev nD) : (dat1 V c).arrAt 1 cfg1.N = relu (V c main_v46) :=
  (dat1 V c).arrAt_eq_of_cover 1 (relu (V c main_v46)) (fun t _ => flushed_eq V c t) cover

end Cert.Gcn.Region1

end
-- ==== Proof.KernelValue.lean ====
/-
  The idealized kernel's result as one function of its arguments.

  The second region's output array is `relu` of its operand array; that operand is what the host operations between
  the regions leave, `aggregate` of the first region's output array, the edge weights and the edge list; the first
  region's output array is `proj` of the features and the weights. The arguments are still at their launch contents
  when each of them is read: the first region does not write them and the host operations write only buffers of
  their own.
-/
import proofs.«159801_j14654428414705_1_alg».proof.Proof.Gen.KernelIdeal.Frame
import proofs.«159801_j14654428414705_1_alg».proof.Proof.Aggregate
import proofs.«159801_j14654428414705_1_alg».proof.Proof.Region0
import proofs.«159801_j14654428414705_1_alg».proof.Proof.Region1
import proofs.«159801_j14654428414705_1_alg».proof.Proof.LibTransposedDot
import Idealize.ShloMosaic.Lib.StableHlo.Run

noncomputable section

namespace Cert.Gcn.KernelValue

open Cert.KernelIdeal Cert.KernelIdeal.Gen Idealize.ShloMosaic Idealize.ShloMosaic.TcCoe Idealize.SL.Sem Idealize.ShloMosaic.StableHlo
open Cert.LibTransposedDot

section AnyFloat

variable {F : FTy → Type} [FloatOps F]
variable (m : (ℓ : Loc nD τ sig) → Buf (Elt F) ℓ) (ρ : Dev nD → PrngReg)

set_option maxHeartbeats 4000000 in
/-- The second region's operand, as the host operations between the regions leave it: the aggregation of the
    first region's output array, the edge weights and the edge list as they are at the first region's exit. -/
theorem operand_eq (c : Dev nD) :
    V4 m ρ c main_v46 = aggregate (V1 m ρ c main_v0) (V1 m ρ c main_arg1) (V1 m ρ c main_arg3) := by
  show StableHlo.after hostOps1_2 (StableHlo.after hostOps1_1 (StableHlo.after hostOps1 (W1 m ρ c))) (Proc.devRef .tc main_v46) = _
  after_results_simp
  rfl

/-- The first region does not write the edge weights. -/
theorem weights_kept (c : Dev nD) : V1 m ρ c main_arg1 = m ((c.tc : Thread nD τ).loc main_arg1) :=
  W1_of_ne m ρ c main_arg1 (by decide)

/-- The first region does not write the edge list. -/
theorem edges_kept (c : Dev nD) : V1 m ρ c main_arg3 = m ((c.tc : Thread nD τ).loc main_arg3) :=
  W1_of_ne m ρ c main_arg3 (by decide)

end AnyFloat

variable (m : (ℓ : Loc nD τ sig) → Buf (Elt Ideal) ℓ) (ρ : Dev nD → PrngReg)

/-- The first region's output array at its exit is the projection of the launch features and weights. -/
theorem projected (c : Dev nD) :
    V1 m ρ c main_v0 = proj (M := 100000) (K := 128) (N := 128) (m ((c.tc : Thread nD τ).loc main_arg0)) (m ((c.tc : Thread nD τ).loc main_arg2)) :=
  (W1_arr m ρ c 2).trans (Region0.final (V0 m ρ) c)

/-- The result buffer's final contents: the rectified aggregation of the projected features. -/
theorem result (c : Dev nD) :
    W5 m ρ c (Proc.devRef .tc main_v47)
      = relu (aggregate (proj (M := 100000) (K := 128) (N := 128) (m ((c.tc : Thread nD τ).loc main_arg0)) (m ((c.tc : Thread nD τ).loc main_arg2)))
          (m ((c.tc : Thread nD τ).loc main_arg1)) (m ((c.tc : Thread nD τ).loc main_arg3))) := by
  refine (W5_arr m ρ c 1).trans ((Region1.final (V4 m ρ) c).trans (congrArg relu ((operand_eq m ρ c).trans ?_)))
  rw [projected, weights_kept, edges_kept]

end Cert.Gcn.KernelValue

end
-- ==== Proof.Reference.lean ====
/-
  The reference's result as the same function of its arguments.

  The reference multiplies the features by the transposed weights on the host — entry `(p, q)` of that product is
  the sum over `k` of `features (p, k) · weights (q, k)`, which is `proj` —, then applies the same graph operations
  as the kernel, written here once as `aggregate`, and the rectifier.
-/
import proofs.«159801_j14654428414705_1_alg».proof.Proof.Gen.ReferenceIdeal.Run
import proofs.«159801_j14654428414705_1_alg».proof.Proof.Gen.ReferenceIdeal.Read
import proofs.«159801_j14654428414705_1_alg».proof.Proof.Aggregate
import proofs.«159801_j14654428414705_1_alg».proof.Proof.LibTransposedDot

noncomputable section

namespace Cert.Gcn.Reference

open Cert.ReferenceIdeal Cert.ReferenceIdeal.Gen Idealize.ShloMosaic Idealize.ShloMosaic.TcCoe Idealize.SL.Sem
open Idealize.ShloMosaic.ValueIdx Cert.LibTransposedDot

/-- The host's product of the features with the transposed weights is `proj`. -/
theorem product_eq (a : (⟨S100000x128, .f32⟩ : BufTy).Contents (Elt Ideal)) (w : (⟨S128x128, .f32⟩ : BufTy).Contents (Elt Ideal)) :
    Cert.ReferenceIdeal.Read.val_main_v1 (F := Ideal) a w = proj (M := 100000) (K := 128) (N := 128) a w := by
  funext i
  obtain ⟨p, q, rfl⟩ : ∃ (p : Fin 100000) (q : Fin 128), i = ix2 p q := ⟨i 0, i 1, eq_ix2 i⟩
  rw [Cert.ReferenceIdeal.Read.val_main_v1_apply, proj_apply]
  refine Finset.sum_congr rfl fun k _ => ?_
  rw [Cert.ReferenceIdeal.Read.val_main_v0_apply]
  have el : Cert.ReferenceIdeal.Read.lidx_main_v1 (ix2 p q) k = ix2 p k := funext fun d => by
    match d with
    | ⟨0, _⟩ => rfl
    | ⟨1, _⟩ => rfl
  have er : Cert.ReferenceIdeal.Read.idx_main_v0 (Cert.ReferenceIdeal.Read.ridx_main_v1 (ix2 p q) k) = ix2 q k := funext fun d => by
    match d with
    | ⟨0, _⟩ => rfl
    | ⟨1, _⟩ => rfl
  rw [el, er]

set_option maxHeartbeats 4000000 in
/-- The reference's result: the rectified aggregation of the projected features. -/
theorem result (m : (ℓ : Loc nD τ sig) → Buf (Elt Ideal) ℓ) (c : Dev nD) :
    Cert.ReferenceIdeal.Value.res_main_v48 m c
      = relu (aggregate (proj (M := 100000) (K := 128) (N := 128) (m ((c.tc : Thread nD τ).loc main_arg0)) (m ((c.tc : Thread nD τ).loc main_arg2)))
          (m ((c.tc : Thread nD τ).loc main_arg1)) (m ((c.tc : Thread nD τ).loc main_arg3))) := by
  rw [← product_eq]
  unfold Cert.ReferenceIdeal.Value.res_main_v48 Cert.ReferenceIdeal.Read.val_main_v1 Cert.ReferenceIdeal.Read.val_main_v0
  rfl

end Cert.Gcn.Reference

end
-- ==== Proof.lean ====
/-
  A graph-convolution layer: `relu (A · (seq · Wᵀ))`, where `A` is the symmetrically normalised adjacency matrix of
  the weighted edge list with a self loop of weight 3 at every node.

  The kernel computes the feature projection `seq · Wᵀ` in a first kernel region, ten blocks of 10000 rows, each a
  matrix product of the block with the transposed weights; does the graph stage (degrees, the coefficient
  `deg^(-1/2) (row) · w · deg^(-1/2) (col)` of every edge, the gather of the source rows and the sum into the destination
  rows) by host operations; and applies the rectifier in a second kernel region, again ten blocks of 10000 rows.
  The reference does the product, the same graph stage and the rectifier all by host operations.

  Over the extended reals the two results are one function of the arguments,
  `relu (aggregate (proj seq W) edge_weight edge_index)`:
  * `proj` (Proof/LibTransposedDot.lean): entry `(p, q)` is `∑ k, seq (p, k) · W (q, k)`. The first region's output array
    is `proj` of the two arrays because every block of rows of the product reads only the same rows of the features
    (Proof/Region0.lean); the reference's product with the transposed weights is the same sum (Proof/Reference.lean).
  * `aggregate` (Proof/Aggregate.lean) is the graph stage, operation for operation the same in both programs, so it is
    never opened: only its argument `x` has to agree.
  * `relu` is entrywise, so the second region's blocks assemble to `relu` of its whole operand (Proof/Region1.lean).
  No law of arithmetic beyond reading a product as a sum is used, and the precondition (finite inputs) is not needed.

  The three frame claims are the generated ones; the idealization rewrote nothing, so `preserves` is trivial.
-/
import proofs.«159801_j14654428414705_1_alg».proof.Defs
import proofs.«159801_j14654428414705_1_alg».proof.Proof.Gen.Kernel
import proofs.«159801_j14654428414705_1_alg».proof.Proof.Gen.Kernel.Skeleton
import proofs.«159801_j14654428414705_1_alg».proof.Proof.Gen.Kernel.Launch
import proofs.«159801_j14654428414705_1_alg».proof.Proof.Gen.Kernel.Points
import proofs.«159801_j14654428414705_1_alg».proof.Proof.Gen.Kernel.Frame
import proofs.«159801_j14654428414705_1_alg».proof.Proof.Gen.KernelIdeal
import proofs.«159801_j14654428414705_1_alg».proof.Proof.Gen.KernelIdeal.Skeleton
import proofs.«159801_j14654428414705_1_alg».proof.Proof.Gen.KernelIdeal.Launch
import proofs.«159801_j14654428414705_1_alg».proof.Proof.Gen.KernelIdeal.Points
import proofs.«159801_j14654428414705_1_alg».proof.Proof.Gen.KernelIdeal.Frame
import proofs.«159801_j14654428414705_1_alg».proof.Proof.Gen.ReferenceIdeal
import proofs.«159801_j14654428414705_1_alg».proof.Proof.Gen.ReferenceIdeal.Run
import proofs.«159801_j14654428414705_1_alg».proof.Proof.Gen.Pre_finite_inputs
import proofs.«159801_j14654428414705_1_alg».proof.Proof.LibTransposedDot
import proofs.«159801_j14654428414705_1_alg».proof.Proof.KernelRun
import proofs.«159801_j14654428414705_1_alg».proof.Proof.KernelValue
import proofs.«159801_j14654428414705_1_alg».proof.Proof.Reference
import Idealize.ShloMosaic.Adequacy
import Idealize.ShloMosaic.Init

noncomputable section

namespace Cert.Proof

open Idealize.ShloMosaic Idealize.ShloMosaic.TcCoe Idealize.SL.Sem Cert.Gcn Cert.LibTransposedDot

theorem frame_kernel : Cert.frame_Kernel := fun m ρ _ => Cert.Kernel.Gen.frame m ρ

theorem frame_kernelIdeal : Cert.frame_KernelIdeal := fun m ρ _ => Cert.KernelIdeal.Gen.frame m ρ

/-- The reference's run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `relu (aggregate (proj seq W) edge_weight edge_index)` of arguments that agree. -/
theorem algebraic : Cert.algebraic_KernelIdeal_ReferenceIdeal := by
  intro m ρ m' ρ' _ hagree
  refine ⟨fun c => relu (aggregate
      (proj (M := 100000) (K := 128) (N := 128)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))), ?_, ?_⟩
  · exact (θ_run Cert.KernelIdeal.defs _ _).mono (fun r h c => ⟨(h c).1.trans (KernelValue.result m ρ c), (h c).2⟩)
      (KernelRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Reference.result, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
